-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x8192 : Shape := ⟨3, ![32, 128, 8192]⟩
abbrev S128x3 : Shape := ⟨2, ![128, 3]⟩
abbrev S128 : Shape := ⟨1, ![128]⟩
abbrev S_ : Shape := ⟨0, ![]⟩

class Facts : Prop where
  bcast_S_S32x128x8192 : S_.BroadcastsInDim S32x128x8192 (![] : Fin 0 → Fin S32x128x8192.rank)
  reducesTo_S32x128x8192_S_d0_1_2 : S32x128x8192.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x128x8192 .f32) (main_arg1 : FVec F S128x3 .f32) (main_arg2 : FVec F S128 .f32) : IVec S_ 1 :=
  let main_v0 : FVec F S32x128x8192 .f32 := Host.absf main_arg0
  let main_cst : FVec F S_ .f32 := constant S_ .f32 0x7F800000#32
  let main_v1 : FVec F S32x128x8192 .f32 := broadcastInDim S32x128x8192 ![] bcast_S_S32x128x8192 main_cst
  let main_v2 : IVec S32x128x8192 1 := cmpf .olt main_v0 main_v1
  let main_c : IVec S_ 1 := constantI S_ 1 1#1
  let main_v3 : IVec S_ 1 := (fun x v => Host.reduce IntOp.andi x v reducesTo_S32x128x8192_S_d0_1_2 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32x128x8192 : Shape := ⟨3, ![32, 128, 8192]⟩
abbrev S128x3 : Shape := ⟨2, ![128, 3]⟩
abbrev S128 : Shape := ⟨1, ![128]⟩
abbrev S1x128x8192 : Shape := ⟨3, ![1, 128, 8192]⟩
abbrev S128x1 : Shape := ⟨2, ![128, 1]⟩
abbrev S1x128x1 : Shape := ⟨3, ![1, 128, 1]⟩

abbrev nBuf : Space → Nat
  | .hbm => 4
  | .vmem => 6
  | .smem => 0
  | _ => 0

abbrev bufTy : (tb : Table) → Fin (tcTables nBuf tb) → BufTy
  | .hbm, ⟨0, _⟩ => ⟨S32x128x8192, .f32⟩
  | .hbm, ⟨1, _⟩ => ⟨S128x3, .f32⟩
  | .hbm, ⟨2, _⟩ => ⟨S128, .f32⟩
  | .hbm, ⟨3, _⟩ => ⟨S32x128x8192, .f32⟩
  | .local _ .vmem, ⟨0, _⟩ => ⟨S1x128x8192, .f32⟩
  | .local _ .vmem, ⟨1, _⟩ => ⟨S1x128x8192, .f32⟩
  | .local _ .vmem, ⟨2, _⟩ => ⟨S128x3, .f32⟩
  | .local _ .vmem, ⟨3, _⟩ => ⟨S128, .f32⟩
  | .local _ .vmem, ⟨4, _⟩ => ⟨S1x128x8192, .f32⟩
  | .local _ .vmem, ⟨5, _⟩ => ⟨S1x128x8192, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x128x8192_S1x128x8192_0_0_0 : ∀ a, (![0, 0, 0] : Fin 3 → Nat) a + S1x128x8192.size a ≤ S1x128x8192.size a
  h_S1x128x8192 : 0 < S1x128x8192.numel
  inb_S128x3_S128x3_0_0 : ∀ a, (![0, 0] : Fin 2 → Nat) a + S128x3.size a ≤ S128x3.size a
  h_S128x3 : 0 < S128x3.numel
  slices_S128x3_o0_0_S128x1 : S128x3.Slices ![0, 0] S128x1
  shapeCasts_S128x1_S128 : S128x1.ShapeCasts S128
  shapeCasts_S128_S1x128x1 : S128.ShapeCasts S1x128x1
  slices_S128x3_o0_1_S128x1 : S128x3.Slices ![0, 1] S128x1
  slices_S128x3_o0_2_S128x1 : S128x3.Slices ![0, 2] S128x1
  inb_S128_S128_0 : ∀ a, (![0] : Fin 1 → Nat) a + S128.size a ≤ S128.size a
  h_S128 : 0 < S128.numel
  rotates_S1x128x8192_d2 : S1x128x8192.Rotates 2 none
  broadcasts_S1x128x1_S1x128x8192 : S1x128x1.Broadcasts S1x128x8192
  slices_S1x128x8192_o0_0_0_S1x128x1 : S1x128x8192.Slices ![0, 0, 0] S1x128x1
  slices_S1x128x8192_o0_0_8191_S1x128x1 : S1x128x8192.Slices ![0, 0, 8191] S1x128x1
  inb_S1x128x8192_S1x128x1_0_0_0 : ∀ a, (![0, 0, 0] : Fin 3 → Nat) a + S1x128x1.size a ≤ S1x128x8192.size a
  h_S1x128x1 : 0 < S1x128x1.numel
  inb_S1x128x8192_S1x128x1_0_0_8191 : ∀ a, (![0, 0, 8191] : Fin 3 → Nat) a + S1x128x1.size a ≤ S1x128x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S32x128x8192.size a
  hwx0_0 : ∀ i : grid0.Coords, EltTy.bits .f32 = 32 ∨ (Rect.block (s := S32x128x8192) S1x128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x8192.size a ≤ S32x128x8192.size a
  hwx0_3 : ∀ i : grid0.Coords, EltTy.bits .f32 = 32 ∨ (Rect.block (s := S32x128x8192) S1x128x8192.size (cc0_transform_3 i) (hinb0_3 i)).WholeWords (EltTy.packing .f32)

variable [Facts₀]

abbrev win0_0 : Pipeline.Window sig grid0 :=
  Pipeline.Window.ofSpec (Memref.whole main_arg0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x8192 : Shape := ⟨3, ![32, 128, 8192]⟩
abbrev S128x3 : Shape := ⟨2, ![128, 3]⟩
abbrev S128 : Shape := ⟨1, ![128]⟩
abbrev S_ : Shape := ⟨0, ![]⟩
abbrev S32x128x8194 : Shape := ⟨3, ![32, 128, 8194]⟩
abbrev S128x1 : Shape := ⟨2, ![128, 1]⟩
abbrev S1x128x1 : Shape := ⟨3, ![1, 128, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x128x8192, .f32⟩
  | .hbm, ⟨1, _⟩ => ⟨S128x3, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S32x128x8194, .f32⟩
  | .hbm, ⟨6, _⟩ => ⟨S128x1, .f32⟩
  | .hbm, ⟨7, _⟩ => ⟨S1x128x1, .f32⟩
  | .hbm, ⟨8, _⟩ => ⟨S32x128x8192, .f32⟩
  | .hbm, ⟨9, _⟩ => ⟨S32x128x8192, .f32⟩
  | .hbm, ⟨10, _⟩ => ⟨S32x128x8192, .f32⟩
  | .hbm, ⟨11, _⟩ => ⟨S128x1, .f32⟩
  | .hbm, ⟨12, _⟩ => ⟨S1x128x1, .f32⟩
  | .hbm, ⟨13, _⟩ => ⟨S32x128x8192, .f32⟩
  | .hbm, ⟨14, _⟩ => ⟨S32x128x8192, .f32⟩
  | .hbm, ⟨15, _⟩ => ⟨S32x128x8192, .f32⟩
  | .hbm, ⟨16, _⟩ => ⟨S32x128x8192, .f32⟩
  | .hbm, ⟨17, _⟩ => ⟨S128x1, .f32⟩
  | .hbm, ⟨18, _⟩ => ⟨S1x128x1, .f32⟩
  | .hbm, ⟨19, _⟩ => ⟨S32x128x8192, .f32⟩
  | .hbm, ⟨20, _⟩ => ⟨S32x128x8192, .f32⟩
  | .hbm, ⟨21, _⟩ => ⟨S32x128x8192, .f32⟩
  | .hbm, ⟨22, _⟩ => ⟨S32x128x8192, .f32⟩
  | .hbm, ⟨23, _⟩ => ⟨S1x128x1, .f32⟩
  | .hbm, ⟨24, _⟩ => ⟨S32x128x8192, .f32⟩
  | .hbm, ⟨25, _⟩ => ⟨S32x128x8192, .f32⟩
  | _, _ => ⟨S32x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]

class Facts₀ : Prop where
  pads_S32x128x8192_S32x128x8194_000_000_110 : S32x128x8192.Pads (![0, 0, 1] : Fin 3 → Nat) ![0, 0, 1] ![0, 0, 0] S32x128x8194
  h_S_ : 0 < S_.numel
  slices_S128x3_S128x1_0_0 : S128x3.Slices ![0, 0] S128x1
  bcast_S128x1_S1x128x1_1_2 : S128x1.BroadcastsInDim S1x128x1 (![1, 2] : Fin 2 → Fin S1x128x1.rank)
  slices_S32x128x8194_S32x128x8192_0_0_0 : S32x128x8194.Slices ![0, 0, 0] S32x128x8192
  bcast_S1x128x1_S32x128x8192_0_1_2 : S1x128x1.BroadcastsInDim S32x128x8192 (![0, 1, 2] : Fin 3 → Fin S32x128x8192.rank)
  slices_S128x3_S128x1_0_1 : S128x3.Slices ![0, 1] S128x1
  slices_S32x128x8194_S32x128x8192_0_0_1 : S32x128x8194.Slices ![0, 0, 1] S32x128x8192
  slices_S128x3_S128x1_0_2 : S128x3.Slices ![0, 2] S128x1
  slices_S32x128x8194_S32x128x8192_0_0_2 : S32x128x8194.Slices ![0, 0, 2] S32x128x8192
  bcast_S128_S1x128x1_1 : S128.BroadcastsInDim S1x128x1 (![1] : Fin 1 → Fin S1x128x1.rank)

variable [Facts₀]

class Facts : Prop extends Facts₀ where

variable [Facts]
-- ==== Proof.Spec.lean ====
/-
  A depthwise correlation with three taps along the last axis, zero beyond both ends.

  For a row `r` of 8192 entries, taps `a0 a1 a2` and a bias `d`, entry `l` of the result is
      a0 · r(l-1) + a1 · r(l) + a2 · r(l+1) + d,
  where r(-1) and r(8192) are read as zero (`paddedRow`).  The same entry can be computed from the row rolled
  around its ends: the cyclic sum `cyclicRow` takes r(8191) for r(-1) and r(0) for r(8192), and is therefore
  off by exactly one product at each end; taking that product away again at lane 0 and at lane 8191
  (`fixedRow`) gives the padded sum, provided every number involved is a real: on the extended reals
  (p + q) - p = q needs p finite.  `fixedRow_eq_paddedRow` is that statement.

  `conv3` is the padded sum of every row of a [32, 128, 8192] array, row (n, c) with the taps and the bias of
  channel c.
-/
import Idealize.ShloMosaic.PureOps.Ideal
import Idealize.ShloMosaic.Lib.ValueIdx

noncomputable section

namespace Cert.DwConv

open Idealize.ShloMosaic Idealize.ShloMosaic.ValueIdx

/-! ## One row -/

/-- The lane before `l`, around the end: what a rotation by one lane reads at `l`. -/
def prevLane (l : Fin 8192) : Fin 8192 := ⟨(l.val + 8192 - 1 % 8192) % 8192, Nat.mod_lt _ (by decide)⟩

/-- The lane after `l`, around the end: what a rotation by 8191 lanes reads at `l`. -/
def nextLane (l : Fin 8192) : Fin 8192 := ⟨(l.val + 8192 - 8191 % 8192) % 8192, Nat.mod_lt _ (by decide)⟩

theorem prevLane_val (l : Fin 8192) : (prevLane l).val = if l.val = 0 then 8191 else l.val - 1 := by
  unfold prevLane
  have := l.isLt
  show (l.val + 8192 - 1 % 8192) % 8192 = _
  split <;> omega

theorem nextLane_val (l : Fin 8192) : (nextLane l).val = if l.val = 8191 then 0 else l.val + 1 := by
  unfold nextLane
  have := l.isLt
  show (l.val + 8192 - 8191 % 8192) % 8192 = _
  split <;> omega

/-- The three-tap sum of the row rolled around its ends. -/
def cyclicRow (r : Fin 8192 → EReal) (a0 a1 a2 d : EReal) (l : Fin 8192) : EReal :=
  a0 * r (prevLane l) + a1 * r l + a2 * r (nextLane l) + d

/-- The cyclic sum with the product that came around the end taken away again at the first and the last lane. -/
def fixedRow (r : Fin 8192 → EReal) (a0 a1 a2 d : EReal) (l : Fin 8192) : EReal :=
  if l.val = 8191 then cyclicRow r a0 a1 a2 d ⟨8191, by decide⟩ - a2 * r ⟨0, by decide⟩
  else if l.val = 0 then cyclicRow r a0 a1 a2 d ⟨0, by decide⟩ - a0 * r ⟨8191, by decide⟩
  else cyclicRow r a0 a1 a2 d l

/-- The entry to the left of lane `l`, zero before the first lane. -/
def leftOf (r : Fin 8192 → EReal) (l : Fin 8192) : EReal :=
  if h : l.val = 0 then 0 else r ⟨l.val - 1, by have := l.isLt; omega⟩

/-- The entry to the right of lane `l`, zero after the last lane. -/
def rightOf (r : Fin 8192 → EReal) (l : Fin 8192) : EReal :=
  if h : l.val = 8191 then 0 else r ⟨l.val + 1, by have := l.isLt; omega⟩

/-- The three-tap sum of the row with a zero on either side. -/
def paddedRow (r : Fin 8192 → EReal) (a0 a1 a2 d : EReal) (l : Fin 8192) : EReal :=
  a0 * leftOf r l + a1 * r l + a2 * rightOf r l + d

/-- On reals, taking away the first of four summands leaves the other three after a zero. -/
theorem sub_first (p q s d : ℝ) :
    ((p : EReal) + q + s + d) - p = (0 : EReal) + q + s + d := by
  rw [zero_add, ← EReal.coe_add, ← EReal.coe_add, ← EReal.coe_add, ← EReal.coe_sub, ← EReal.coe_add, ← EReal.coe_add]
  exact congrArg _ (by ring)

/-- On reals, taking away the third of four summands leaves a zero in its place. -/
theorem sub_third (p q s d : ℝ) :
    ((p : EReal) + q + s + d) - s = (p : EReal) + q + 0 + d := by
  rw [add_zero]
  simp only [← EReal.coe_add, ← EReal.coe_sub]
  exact congrArg _ (by ring)

/-- For a real row, real taps and a real bias the rolled-and-fixed sum is the zero-padded one, lane by lane. -/
theorem fixedRow_eq_paddedRow (r : Fin 8192 → ℝ) (a0 a1 a2 d : ℝ) (l : Fin 8192) :
    fixedRow (fun k => (r k : EReal)) a0 a1 a2 d l = paddedRow (fun k => (r k : EReal)) a0 a1 a2 d l := by
  have hl := l.isLt
  unfold fixedRow paddedRow cyclicRow leftOf rightOf
  by_cases h1 : l.val = 8191
  · have e : l = ⟨8191, by decide⟩ := Fin.ext h1
    subst e
    have hp : prevLane ⟨8191, by decide⟩ = ⟨8190, by decide⟩ := Fin.ext (by rw [prevLane_val]; rfl)
    have hn : nextLane ⟨8191, by decide⟩ = ⟨0, by decide⟩ := Fin.ext (by rw [nextLane_val]; rfl)
    rw [if_pos rfl, dif_neg (by decide), dif_pos rfl, hp, hn, mul_zero]
    simp only [← EReal.coe_mul]
    exact sub_third _ _ _ _
  · rw [if_neg h1, dif_neg h1]
    by_cases h0 : l.val = 0
    · have e : l = ⟨0, by decide⟩ := Fin.ext h0
      subst e
      have hp : prevLane ⟨0, by decide⟩ = ⟨8191, by decide⟩ := Fin.ext (by rw [prevLane_val]; rfl)
      have hn : nextLane ⟨0, by decide⟩ = ⟨1, by decide⟩ := Fin.ext (by rw [nextLane_val]; rfl)
      rw [if_pos rfl, dif_pos rfl, hp, hn, mul_zero]
      simp only [← EReal.coe_mul]
      exact sub_first _ _ _ _
    · rw [if_neg h0, dif_neg h0]
      have hp : prevLane l = ⟨l.val - 1, by omega⟩ := Fin.ext (by rw [prevLane_val, if_neg h0])
      have hn : nextLane l = ⟨l.val + 1, by omega⟩ := Fin.ext (by rw [nextLane_val, if_neg h1])
      rw [hp, hn]

/-- The same with finiteness given entry by entry: every entry of the row, the taps and the bias a real. -/
theorem fixedRow_eq_paddedRow_of_real (r : Fin 8192 → EReal) (a0 a1 a2 d : EReal) (hr : ∀ k, ∃ x : ℝ, r k = (x : EReal))
    (h0 : ∃ x : ℝ, a0 = (x : EReal)) (h1 : ∃ x : ℝ, a1 = (x : EReal)) (h2 : ∃ x : ℝ, a2 = (x : EReal))
    (hd : ∃ x : ℝ, d = (x : EReal)) (l : Fin 8192) : fixedRow r a0 a1 a2 d l = paddedRow r a0 a1 a2 d l := by
  choose r' hr' using hr
  obtain ⟨a0', rfl⟩ := h0
  obtain ⟨a1', rfl⟩ := h1
  obtain ⟨a2', rfl⟩ := h2
  obtain ⟨d', rfl⟩ := hd
  obtain rfl : r = fun k => (r' k : EReal) := funext hr'
  exact fixedRow_eq_paddedRow r' a0' a1' a2' d' l

/-! ## The array -/

/-- The input array, [batch, channel, lane]. -/
abbrev SX : Shape := ⟨3, ![32, 128, 8192]⟩
/-- The taps, [channel, tap]. -/
abbrev SW : Shape := ⟨2, ![128, 3]⟩
/-- The bias, [channel]. -/
abbrev SB : Shape := ⟨1, ![128]⟩

/-- Entry (n, c, l) of the depthwise correlation: the zero-padded three-tap sum of row (n, c) with channel c's taps
    and bias. -/
def conv3At (x : SX.Idx → EReal) (w : SW.Idx → EReal) (b : SB.Idx → EReal) (n : Fin 32) (c : Fin 128) (l : Fin 8192) :
    EReal :=
  paddedRow (fun k => x (ix3 n c k)) (w (ix2 c (0 : Fin 3))) (w (ix2 c (1 : Fin 3))) (w (ix2 c (2 : Fin 3))) (b (ix1 c)) l

/-- The depthwise correlation as one function of the three arrays. -/
def conv3 (x : SX.Idx → EReal) (w : SW.Idx → EReal) (b : SB.Idx → EReal) : SX.Idx → EReal :=
  fun i => conv3At x w b (i 0) (i 1) (i 2)

theorem conv3_apply (x : SX.Idx → EReal) (w : SW.Idx → EReal) (b : SB.Idx → EReal) (n : Fin 32) (c : Fin 128)
    (l : Fin 8192) : conv3 x w b (ix3 n c l) = conv3At x w b n c l := rfl

end Cert.DwConv

end
-- ==== Proof.RefIsSpec.lean ====
/-
  The reference, index by index, is the depthwise correlation `conv3`.

  The reference pads every row with one zero on either side (8192 → 8194 lanes) and adds three slices of the padded
  array, at lane offsets 0, 1 and 2, each times one tap broadcast over batch and lanes, then the bias.  Entry k of a
  padded row is the row's entry k - 1 for 1 ≤ k ≤ 8192 and the padding value, the integer zero converted to a float,
  elsewhere; so at lane l the three slices read the entry to the left of l (zero at l = 0), the entry at l, and the
  entry to the right of l (zero at l = 8191).  No arithmetic law is used: the two sides are the same expression.
-/
import proofs.«119317_j23364622090654_2_alg».proof.Proof.Gen.ReferenceIdeal.Read
import proofs.«119317_j23364622090654_2_alg».proof.Proof.Spec
import Idealize.ShloMosaic.Lib.KernelVsHost

noncomputable section

namespace Cert.ReferenceIdeal.RefValue

open Cert.ReferenceIdeal Cert.ReferenceIdeal.Gen Cert.ReferenceIdeal.Read
open Idealize.ShloMosaic Idealize.ShloMosaic.ValueIdx Cert.DwConv

/-- The padded array at (n, c, k): the array at lane k - 1 inside, zero in the two padding lanes. -/
theorem padded_apply (x0 : (⟨S32x128x8192, .f32⟩ : BufTy).Contents (Elt Ideal)) (n : Fin 32) (c : Fin 128) (k : Fin 8194) :
    val_main_v0 (F := Ideal) x0 (ix3 n c k)
      = if h : 1 ≤ k.val ∧ k.val ≤ 8192 then x0 (ix3 n c ⟨k.val - 1, by omega⟩) else (0 : EReal) := by
  unfold val_main_v0
  by_cases h : 1 ≤ k.val ∧ k.val ≤ 8192
  · rw [dif_pos h]
    exact pad_apply_of_inside ![0, 0, 1] ![0, 0, 1] ![0, 0, 0] x0 _ pads_S32x128x8192_S32x128x8194_000_000_110 h_S_
      (ix3 n c k) (ix3 n c ⟨k.val - 1, by omega⟩) (fun a => match a with
        | ⟨0, _⟩ => by show n.val = 0 + n.val * (0 + 1); omega
        | ⟨1, _⟩ => by show c.val = 0 + c.val * (0 + 1); omega
        | ⟨2, _⟩ => by show k.val = 1 + (k.val - 1) * (0 + 1); omega)
  · rw [dif_neg h]
    refine (pad_apply_of_not_inside ![0, 0, 1] ![0, 0, 1] ![0, 0, 0] x0 _ pads_S32x128x8192_S32x128x8194_000_000_110 h_S_
      (ix3 n c k) (2 : Fin 3) ?_).trans ?_
    · show ¬(1 ≤ k.val ∧ (k.val - 1) % (0 + 1) = 0 ∧ (k.val - 1) / (0 + 1) < 8192)
      omega
    · exact sitofp_zero (φ := .f32)

/-- The slice at lane offset 0 reads the entry to the left, zero at the first lane. -/
theorem slice0_apply (x0 : (⟨S32x128x8192, .f32⟩ : BufTy).Contents (Elt Ideal)) (n : Fin 32) (c : Fin 128) (l : Fin 8192) :
    val_main_v0 (F := Ideal) x0 (ix3 n c (⟨l.val, by have := l.isLt; omega⟩ : Fin 8194))
      = leftOf (fun k => x0 (ix3 n c k)) l := by
  have hl := l.isLt
  rw [padded_apply]
  unfold leftOf
  by_cases h0 : l.val = 0
  · rw [dif_pos h0, dif_neg (by show ¬(1 ≤ l.val ∧ l.val ≤ 8192); omega)]
  · rw [dif_neg h0, dif_pos (by show 1 ≤ l.val ∧ l.val ≤ 8192; omega)]

/-- The slice at lane offset 1 reads the entry itself. -/
theorem slice1_apply (x0 : (⟨S32x128x8192, .f32⟩ : BufTy).Contents (Elt Ideal)) (n : Fin 32) (c : Fin 128) (l : Fin 8192) :
    val_main_v0 (F := Ideal) x0 (ix3 n c (⟨1 + l.val, by have := l.isLt; omega⟩ : Fin 8194)) = x0 (ix3 n c l) := by
  have hl := l.isLt
  rw [padded_apply, dif_pos (by show 1 ≤ 1 + l.val ∧ 1 + l.val ≤ 8192; omega)]
  exact congrArg (fun k => x0 (ix3 n c k)) (Fin.ext (by show 1 + l.val - 1 = l.val; omega))

/-- The slice at lane offset 2 reads the entry to the right, zero at the last lane. -/
theorem slice2_apply (x0 : (⟨S32x128x8192, .f32⟩ : BufTy).Contents (Elt Ideal)) (n : Fin 32) (c : Fin 128) (l : Fin 8192) :
    val_main_v0 (F := Ideal) x0 (ix3 n c (⟨2 + l.val, by have := l.isLt; omega⟩ : Fin 8194))
      = rightOf (fun k => x0 (ix3 n c k)) l := by
  have hl := l.isLt
  rw [padded_apply]
  unfold rightOf
  by_cases h1 : l.val = 8191
  · rw [dif_pos h1, dif_neg (by show ¬(1 ≤ 2 + l.val ∧ 2 + l.val ≤ 8192); omega)]
  · rw [dif_neg h1, dif_pos (by show 1 ≤ 2 + l.val ∧ 2 + l.val ≤ 8192; omega)]
    exact congrArg (fun k => x0 (ix3 n c k)) (Fin.ext (by show 2 + l.val - 1 = l.val + 1; omega))

/-- The reference's result is `conv3` of its three arguments. -/
theorem reference_is_conv3 (x0 : (⟨S32x128x8192, .f32⟩ : BufTy).Contents (Elt Ideal))
    (x1 : (⟨S128x3, .f32⟩ : BufTy).Contents (Elt Ideal)) (x2 : (⟨S128, .f32⟩ : BufTy).Contents (Elt Ideal)) :
    val_main_v20 (F := Ideal) x0 x1 x2 = conv3 x0 x1 x2 := by
  funext i
  obtain ⟨n, c, l, rfl⟩ : ∃ (n : Fin 32) (c : Fin 128) (l : Fin 8192), i = ix3 n c l := ⟨i 0, i 1, i 2, eq_ix3 i⟩
  have hl := l.isLt
  -- the taps and the bias: channel c's, whatever the batch and the lane
  have t0 : idx_main_v1 (idx_main_v2 (idx_main_v4 (ix3 n c l))) = ix2 c (0 : Fin 3) :=
    funext fun a => Fin.ext (by match a with | ⟨0, _⟩ => rfl | ⟨1, _⟩ => rfl)
  have t1 : idx_main_v6 (idx_main_v7 (idx_main_v9 (ix3 n c l))) = ix2 c (1 : Fin 3) :=
    funext fun a => Fin.ext (by match a with | ⟨0, _⟩ => rfl | ⟨1, _⟩ => rfl)
  have t2 : idx_main_v12 (idx_main_v13 (idx_main_v15 (ix3 n c l))) = ix2 c (2 : Fin 3) :=
    funext fun a => Fin.ext (by match a with | ⟨0, _⟩ => rfl | ⟨1, _⟩ => rfl)
  have tb : idx_main_v18 (idx_main_v19 (ix3 n c l)) = ix1 c :=
    funext fun a => Fin.ext (by match a with | ⟨0, _⟩ => rfl)
  -- the three slices of the padded array
  have s0 : idx_main_v3 (ix3 n c l) = ix3 n c (⟨l.val, by omega⟩ : Fin 8194) :=
    funext fun a => Fin.ext (by match a with | ⟨0, _⟩ => rfl | ⟨1, _⟩ => rfl | ⟨2, _⟩ => rfl)
  have s1 : idx_main_v8 (ix3 n c l) = ix3 n c (⟨1 + l.val, by omega⟩ : Fin 8194) :=
    funext fun a => Fin.ext (by match a with | ⟨0, _⟩ => rfl | ⟨1, _⟩ => rfl | ⟨2, _⟩ => rfl)
  have s2 : idx_main_v14 (ix3 n c l) = ix3 n c (⟨2 + l.val, by omega⟩ : Fin 8194) :=
    funext fun a => Fin.ext (by match a with | ⟨0, _⟩ => rfl | ⟨1, _⟩ => rfl | ⟨2, _⟩ => rfl)
  rw [val_main_v20_apply, val_main_v17_apply, val_main_v11_apply, val_main_v5_apply, val_main_v10_apply,
    val_main_v16_apply, val_main_v19_apply, val_main_v18_apply, val_main_v4_apply, val_main_v2_apply,
    val_main_v1_apply, val_main_v9_apply, val_main_v7_apply, val_main_v6_apply, val_main_v15_apply,
    val_main_v13_apply, val_main_v12_apply, val_main_v3_apply, val_main_v8_apply, val_main_v14_apply,
    t0, t1, t2, tb, s0, s1, s2, slice0_apply, slice1_apply, slice2_apply, conv3_apply]
  rfl

end Cert.ReferenceIdeal.RefValue

end
-- ==== Proof.KernelBlock.lean ====
/-
  What the kernel leaves in one output block, entry by entry.

  At a grid point the body holds one batch member x0 : [1, 128, 8192], the taps x1 : [128, 3] and the bias
  x2 : [128].  It stores three things into the output block, in this order: the cyclic three-tap sum of every row
  (the rows rolled by one lane and by 8191 lanes, i.e. by one lane either way, each times its tap column broadcast
  along the lanes, plus the bias column), then a new lane 0 (the stored sum's lane 0 minus tap 0 times the row's
  last entry), then a new lane 8191 (the stored sum's lane 8191 minus tap 2 times the row's first entry).  A later
  store hides an earlier one where they overlap, so entry (0, c, l) of the block ends as the last store's value at
  l = 8191, the second's at l = 0, and the first's elsewhere: `fixedRow` of row c.
-/
import proofs.«119317_j23364622090654_2_alg».proof.Proof.Gen.KernelIdeal.Frame
import proofs.«119317_j23364622090654_2_alg».proof.Proof.Spec
import Idealize.ShloMosaic.Lib.KernelVsHost
import Idealize.ShloMosaic.Lib.WritesUnit

noncomputable section

namespace Cert.KernelIdeal.Block

open Cert.KernelIdeal Cert.KernelIdeal.Gen
open Idealize.ShloMosaic Idealize.ShloMosaic.ValueIdx Cert.DwConv

/-! ## The layout operations of the body, read at an index -/

section Layout
variable {α : Type}

/-- Column `o` of the taps as a [1, 128, 1] column: entry (0, c, 0) is tap (c, o). -/
theorem tapColumn_apply (v1 : S128x3.Idx → α) (k : Nat) (o : Fin 3) (ho : o.val = k) (hs : S128x3.Slices ![0, k] S128x1)
    (h2 : S128x1.ShapeCasts S128) (h3 : S128.ShapeCasts S1x128x1) (c : Fin 128) :
    shapeCast S1x128x1 (shapeCast S128 (extractStridedSlice S128x1 ![0, k] v1 hs) h2) h3 (ix3 (0 : Fin 1) c (0 : Fin 1))
      = v1 (ix2 c o) := by
  subst ho
  refine (shapeCast_apply _ h3 (ix3 (0 : Fin 1) c (0 : Fin 1)) (ix1 c) ?_).trans ?_
  · rw [Shape.rowMajor_val_one, Shape.rowMajor_val_three]
    show c.val = (0 * 128 + c.val) * 1 + 0
    omega
  refine (shapeCast_apply _ h2 (ix1 c) (ix2 c (0 : Fin 1)) ?_).trans ?_
  · rw [Shape.rowMajor_val_two, Shape.rowMajor_val_one]
    show c.val * 1 + 0 = c.val
    omega
  exact extractStridedSlice_apply ![0, o.val] v1 hs (ix2 c (0 : Fin 1)) (ix2 c o) (fun a => match a with
    | ⟨0, _⟩ => by show c.val = 0 + c.val; omega
    | ⟨1, _⟩ => by show o.val = o.val + 0; omega)

/-- The bias as a [1, 128, 1] column: entry (0, c, 0) is bias c. -/
theorem biasColumn_apply (v11 : S128.Idx → α) (h3 : S128.ShapeCasts S1x128x1) (c : Fin 128) :
    shapeCast S1x128x1 v11 h3 (ix3 (0 : Fin 1) c (0 : Fin 1)) = v11 (ix1 c) := by
  refine shapeCast_apply _ h3 (ix3 (0 : Fin 1) c (0 : Fin 1)) (ix1 c) ?_
  rw [Shape.rowMajor_val_one, Shape.rowMajor_val_three]
  show c.val = (0 * 128 + c.val) * 1 + 0
  omega

/-- A [1, 128, 1] column broadcast along the lanes: entry (0, c, l) is the column's entry (0, c, 0). -/
theorem alongLanes_apply (u : S1x128x1.Idx → α) (h : S1x128x1.Broadcasts S1x128x8192) (c : Fin 128) (l : Fin 8192) :
    broadcastTo S1x128x8192 u h (ix3 (0 : Fin 1) c l) = u (ix3 (0 : Fin 1) c (0 : Fin 1)) :=
  broadcastTo_apply u h (ix3 (0 : Fin 1) c l) (ix3 (0 : Fin 1) c (0 : Fin 1)) (fun a => match a with
    | ⟨0, _⟩ => rfl
    | ⟨1, _⟩ => rfl
    | ⟨2, _⟩ => rfl)

/-- The block rolled by one lane reads the lane before, around the end. -/
theorem rollRight_apply (v0 : S1x128x8192.Idx → α) (h : S1x128x8192.Rotates 2 none) (c : Fin 128) (l : Fin 8192) :
    dynamicRotate 2 1#32 none v0 h (ix3 (0 : Fin 1) c l) = v0 (ix3 (0 : Fin 1) c (prevLane l)) :=
  dynamicRotate_apply 2 1#32 v0 h (ix3 (0 : Fin 1) c l) (ix3 (0 : Fin 1) c (prevLane l)) (fun b => match b with
    | ⟨0, _⟩ => rfl
    | ⟨1, _⟩ => rfl
    | ⟨2, _⟩ => rfl)

/-- The block rolled by 8191 lanes reads the lane after, around the end. -/
theorem rollLeft_apply (v0 : S1x128x8192.Idx → α) (h : S1x128x8192.Rotates 2 none) (c : Fin 128) (l : Fin 8192) :
    dynamicRotate 2 8191#32 none v0 h (ix3 (0 : Fin 1) c l) = v0 (ix3 (0 : Fin 1) c (nextLane l)) :=
  dynamicRotate_apply 2 8191#32 v0 h (ix3 (0 : Fin 1) c l) (ix3 (0 : Fin 1) c (nextLane l)) (fun b => match b with
    | ⟨0, _⟩ => rfl
    | ⟨1, _⟩ => rfl
    | ⟨2, _⟩ => rfl)

/-- Lane `o` of the block as a [1, 128, 1] column: entry (0, c, 0) is the block's entry (0, c, o). -/
theorem laneColumn_apply (u : S1x128x8192.Idx → α) (o : Fin 8192) (hs : S1x128x8192.Slices ![0, 0, o.val] S1x128x1)
    (c : Fin 128) :
    extractStridedSlice S1x128x1 ![0, 0, o.val] u hs (ix3 (0 : Fin 1) c (0 : Fin 1)) = u (ix3 (0 : Fin 1) c o) :=
  extractStridedSlice_apply ![0, 0, o.val] u hs (ix3 (0 : Fin 1) c (0 : Fin 1)) (ix3 (0 : Fin 1) c o) (fun a => match a with
    | ⟨0, _⟩ => by show 0 = 0 + 0; rfl
    | ⟨1, _⟩ => by show c.val = 0 + c.val; omega
    | ⟨2, _⟩ => by show o.val = o.val + 0; omega)

end Layout

/-! ## The three stored values at an index -/

/-- Row `c` of the block. -/
abbrev rowOf (v0 : Vec Ideal S1x128x8192 .f32) (c : Fin 128) : Fin 8192 → EReal := fun k => v0 (ix3 (0 : Fin 1) c k)

/-- The first store: the cyclic three-tap sum of row c, at lane l. -/
theorem slab_apply (v0 : Vec Ideal S1x128x8192 .f32) (v1 : Vec Ideal S128x3 .f32) (v11 : Vec Ideal S128 .f32)
    (c : Fin 128) (l : Fin 8192) :
    k0_pay3 v0 v1 v11 (ix3 (0 : Fin 1) c l)
      = cyclicRow (rowOf v0 c) (v1 (ix2 c (0 : Fin 3))) (v1 (ix2 c (1 : Fin 3))) (v1 (ix2 c (2 : Fin 3))) (v11 (ix1 c)) l := by
  unfold k0_pay3 k0_pay1 k0_pay2 cyclicRow rowOf
  simp only [addf_apply, mulf_apply, alongLanes_apply]
  rw [rollRight_apply, rollLeft_apply, tapColumn_apply v1 0 (0 : Fin 3) rfl, tapColumn_apply v1 1 (1 : Fin 3) rfl,
    tapColumn_apply v1 2 (2 : Fin 3) rfl, biasColumn_apply]

/-- The second store: the sum's lane 0 less tap 0 times the row's last entry. -/
theorem firstLane_apply (v0 : Vec Ideal S1x128x8192 .f32) (v1 : Vec Ideal S128x3 .f32) (v11 : Vec Ideal S128 .f32)
    (c : Fin 128) :
    k0_pay4 v0 v1 v11 (ix3 (0 : Fin 1) c (0 : Fin 1))
      = cyclicRow (rowOf v0 c) (v1 (ix2 c (0 : Fin 3))) (v1 (ix2 c (1 : Fin 3))) (v1 (ix2 c (2 : Fin 3))) (v11 (ix1 c))
          ⟨0, by decide⟩ - v1 (ix2 c (0 : Fin 3)) * rowOf v0 c ⟨8191, by decide⟩ := by
  unfold k0_pay4
  simp only [subf_apply, mulf_apply]
  rw [laneColumn_apply _ (⟨0, by decide⟩ : Fin 8192), laneColumn_apply _ (⟨8191, by decide⟩ : Fin 8192), slab_apply]
  unfold k0_pay1
  rw [tapColumn_apply v1 0 (0 : Fin 3) rfl]

/-- The third store: the sum's lane 8191 less tap 2 times the row's first entry. -/
theorem lastLane_apply (v0 : Vec Ideal S1x128x8192 .f32) (v1 : Vec Ideal S128x3 .f32) (v11 : Vec Ideal S128 .f32)
    (c : Fin 128) :
    k0_pay5 v0 v1 v11 (ix3 (0 : Fin 1) c (0 : Fin 1))
      = cyclicRow (rowOf v0 c) (v1 (ix2 c (0 : Fin 3))) (v1 (ix2 c (1 : Fin 3))) (v1 (ix2 c (2 : Fin 3))) (v11 (ix1 c))
          ⟨8191, by decide⟩ - v1 (ix2 c (2 : Fin 3)) * rowOf v0 c ⟨0, by decide⟩ := by
  unfold k0_pay5
  simp only [subf_apply, mulf_apply]
  rw [laneColumn_apply _ (⟨8191, by decide⟩ : Fin 8192), laneColumn_apply _ (⟨0, by decide⟩ : Fin 8192), slab_apply]
  unfold k0_pay2
  rw [tapColumn_apply v1 2 (2 : Fin 3) rfl]

/-! ## The block the body leaves -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The output block as a function of the three input blocks: row c is the rolled-and-fixed sum of row c of the
    batch member with channel c's taps and bias. -/
def blockOut (x0 : Vec Ideal S1x128x8192 .f32) (x1 : Vec Ideal S128x3 .f32) (x2 : Vec Ideal S128 .f32) :
    Vec Ideal S1x128x8192 .f32 :=
  fun y => fixedRow (rowOf x0 (y 1)) (x1 (ix2 (y 1) (0 : Fin 3))) (x1 (ix2 (y 1) (1 : Fin 3))) (x1 (ix2 (y 1) (2 : Fin 3)))
    (x2 (ix1 (y 1))) (y 2)

/-- What the body's three stores leave in the output block, whatever staging buffers it runs on: the last store at
    lane 8191, the second at lane 0, the first at every other lane. -/
theorem out_eq (c : Dev nD) (i : grid0.Coords) (arg1 : Memref sig .tc .vmem S1x128x8192 .f32) (harg1 : arg1.IsWhole)
    (arg2 : Memref sig .tc .vmem S128x3 .f32) (harg2 : arg2.IsWhole) (arg3 : Memref sig .tc .vmem S128 .f32)
    (harg3 : arg3.IsWhole) (arg4 : Memref sig .tc .vmem S1x128x8192 .f32) (harg4 : arg4.IsWhole)
    (x0 : Vec Ideal S1x128x8192 .f32) (x1 : Vec Ideal S128x3 .f32) (x2 : Vec Ideal S128 .f32) :
    out0_A_3 (F := Ideal) c i arg1 harg1 arg2 harg2 arg3 harg3 arg4 harg4 x0 x1 x2 = blockOut x0 x1 x2 := by
  funext y
  obtain ⟨z, ch, l, rfl⟩ : ∃ (z : Fin 1) (ch : Fin 128) (l : Fin 8192), y = ix3 z ch l := ⟨y 0, y 1, y 2, eq_ix3 y⟩
  obtain rfl : z = 0 := Subsingleton.elim _ _
  have hl := l.isLt
  unfold out0_A_3 kernelRun0_A
  dsimp only
  simp only [View.readAt_eq_ld, harg1.read_unread, harg2.read_unread, harg3.read_unread,
    View.ld_unit_zero (S := S1x128x8192) zeros3, View.ld_unit_zero (S := S128x3) zeros2,
    View.ld_unit_zero (S := S128) zeros1]
  show _ = fixedRow (rowOf x0 ch) (x1 (ix2 ch (0 : Fin 3))) (x1 (ix2 ch (1 : Fin 3))) (x1 (ix2 ch (2 : Fin 3))) (x2 (ix1 ch)) l
  unfold fixedRow
  by_cases h1 : l.val = 8191
  · rw [if_pos h1]
    obtain rfl : l = ⟨8191, by decide⟩ := Fin.ext h1
    refine (View.read_writes_cons_unit_of_mem VO0_3 VO0_3.junk _ _ _ (ix3 (0 : Fin 1) ch (⟨8191, by decide⟩ : Fin 8192))
      (ix3 (0 : Fin 1) ch (0 : Fin 1)) rfl (fun a => match a with
        | ⟨0, _⟩ => rfl
        | ⟨1, _⟩ => by show ch.val = 0 + ch.val; omega
        | ⟨2, _⟩ => rfl)).trans ?_
    exact lastLane_apply x0 x1 x2 ch
  · rw [if_neg h1]
    refine (View.read_writes_cons_unit_of_not_mem VO0_3 VO0_3.junk _ _ _ (ix3 (0 : Fin 1) ch l) rfl (2 : Fin 3)
      (Or.inl (by show l.val < 8191; omega))).trans ?_
    by_cases h0 : l.val = 0
    · rw [if_pos h0]
      obtain rfl : l = ⟨0, by decide⟩ := Fin.ext h0
      refine (View.read_writes_cons_unit_of_mem VO0_3 VO0_3.junk _ _ _ (ix3 (0 : Fin 1) ch (⟨0, by decide⟩ : Fin 8192))
        (ix3 (0 : Fin 1) ch (0 : Fin 1)) rfl (fun a => match a with
          | ⟨0, _⟩ => rfl
          | ⟨1, _⟩ => by show ch.val = 0 + ch.val; omega
          | ⟨2, _⟩ => rfl)).trans ?_
      exact firstLane_apply x0 x1 x2 ch
    · rw [if_neg h0]
      refine (View.read_writes_cons_unit_of_not_mem VO0_3 VO0_3.junk _ _ _ (ix3 (0 : Fin 1) ch l) rfl (2 : Fin 3)
        (Or.inr (by show 0 + 1 ≤ l.val; omega))).trans ?_
      refine (View.read_writes_cons_unit_of_mem VO0_3 VO0_3.junk _ _ _ (ix3 (0 : Fin 1) ch l) (ix3 (0 : Fin 1) ch l) rfl
        (fun a => match a with
          | ⟨0, _⟩ => rfl
          | ⟨1, _⟩ => by show ch.val = 0 + ch.val; omega
          | ⟨2, _⟩ => by show l.val = 0 + l.val; omega)).trans ?_
      exact slab_apply x0 x1 x2 ch l

end Cert.KernelIdeal.Block

end
-- ==== Proof.KernelArray.lean ====
/-
  From blocks to the array: after the kernel's run its result array is `conv3` of its three argument arrays.

  The grid has 32 points; point t stages batch member t of the input, the whole tap and bias arrays, and writes its
  output block back as batch member t of the result.  What it writes is `blockOut` of the staged blocks, the
  rolled-and-fixed three-tap sum of each row; the rows it reads are rows (t, c) of the input array, so under the
  precondition (every entry a real) that is the zero-padded sum, block t of `conv3`.  The 32 blocks cover the result.
-/
import proofs.«119317_j23364622090654_2_alg».proof.Proof.Gen.KernelIdeal.Value
import proofs.«119317_j23364622090654_2_alg».proof.Proof.KernelBlock

noncomputable section

namespace Cert.KernelIdeal.ArrayValue

open Cert.KernelIdeal Cert.KernelIdeal.Gen Cert.KernelIdeal.Value Cert.KernelIdeal.Block
open Idealize.ShloMosaic Idealize.ShloMosaic.TcCoe Idealize.ShloMosaic.ValueIdx Idealize.SL.Sem Cert.DwConv
open Idealize.ShloMosaic.Pipeline (Dat)

variable (m : (ℓ : Loc nD τ sig) → Buf (Elt Ideal) ℓ) (ρ : Dev nD → PrngReg)

/-- The index maps over the grid: the input's block moves with the output's along the batch axis and both sit at
    zero on the other two; the taps' and the bias' blocks never move; the batch index stays below 32. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 3) ≤ 31 ∧ win0_3.index t (1 : Fin 3) = 0 ∧ win0_3.index t (2 : Fin 3) = 0 :=
  (by decide +kernel : ∀ t : Fin grid0.N, _)

/-- Every batch member is some point's output block. -/
theorem index_onto : ∀ q : Fin 32, ∃ t : Fin cfg0.N, win0_3.index t = ![q.val, 0, 0] :=
  (by decide +kernel : ∀ q : Fin 32, ∃ t : Fin grid0.N, win0_3.index t = ![q.val, 0, 0])

/-- The staged input block at point t is batch member n of the input array, n the output's batch index there. -/
theorem input_block (c : Dev nD) (t : Fin cfg0.N) (n : Fin 32) (hn : win0_3.index t (0 : Fin 3) = n.val) (ch : Fin 128)
    (k : Fin 8192) : iblk m c 0 t (ix3 (0 : Fin 1) ch k) = V m c main_arg0 (ix3 n ch k) := by
  obtain ⟨e0, e1, e2, -⟩ := index_facts t
  show V m c main_arg0 (((cfg0.win 0).blk t).view.emb (ix3 (0 : Fin 1) ch k)) = V m c main_arg0 (ix3 n ch k)
  refine congrArg _ (funext fun a => Fin.ext ?_)
  match a with
  | ⟨0, _⟩ => show win0_0.index t (0 : Fin 3) * 1 + 1 * 0 = n.val; omega
  | ⟨1, _⟩ => show win0_0.index t (1 : Fin 3) * 128 + 1 * ch.val = ch.val; omega
  | ⟨2, _⟩ => show win0_0.index t (2 : Fin 3) * 8192 + 1 * k.val = k.val; omega

/-- The staged taps are the tap array. -/
theorem taps_block (c : Dev nD) (t : Fin cfg0.N) (ch : Fin 128) (o : Fin 3) :
    iblk m c 1 t (ix2 ch o) = V m c main_arg1 (ix2 ch o) := by
  obtain ⟨-, -, -, e3, e4, -⟩ := index_facts t
  show V m c main_arg1 (((cfg0.win 1).blk t).view.emb (ix2 ch o)) = V m c main_arg1 (ix2 ch o)
  refine congrArg _ (funext fun a => Fin.ext ?_)
  match a with
  | ⟨0, _⟩ => show win0_1.index t (0 : Fin 2) * 128 + 1 * ch.val = ch.val; omega
  | ⟨1, _⟩ => show win0_1.index t (1 : Fin 2) * 3 + 1 * o.val = o.val; omega

/-- The staged bias is the bias array. -/
theorem bias_block (c : Dev nD) (t : Fin cfg0.N) (ch : Fin 128) :
    iblk m c 2 t (ix1 ch) = V m c main_arg2 (ix1 ch) := by
  obtain ⟨-, -, -, -, -, e5, -⟩ := index_facts t
  show V m c main_arg2 (((cfg0.win 2).blk t).view.emb (ix1 ch)) = V m c main_arg2 (ix1 ch)
  refine congrArg _ (funext fun a => Fin.ext ?_)
  match a with
  | ⟨0, _⟩ => show win0_2.index t (0 : Fin 1) * 128 + 1 * ch.val = ch.val; omega

/-- What point t writes back is block t of `conv3` of the argument arrays, when every entry of them is a real. -/
theorem flushed_eq (c : Dev nD) (hx : ∀ i, ∃ r : ℝ, V m c main_arg0 i = (r : EReal))
    (hw : ∀ i, ∃ r : ℝ, V m c main_arg1 i = (r : EReal)) (hb : ∀ i, ∃ r : ℝ, V m c main_arg2 i = (r : EReal))
    (t : Fin cfg0.N) :
    (dats m 0 c).flushed 3 t
      = ((cfg0.win 3).blk t).view.read (Elt Ideal) (conv3 (V m c main_arg0) (V m c main_arg1) (V m c main_arg2)) := by
  refine (flushed3_A m c t).trans ?_
  rw [out_eq c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨-, -, -, -, -, -, e6, e7, e8⟩ := index_facts t
  funext j
  obtain ⟨z, ch, l, rfl⟩ : ∃ (z : Fin 1) (ch : Fin 128) (l : Fin 8192), j = ix3 z ch l := ⟨j 0, j 1, j 2, eq_ix3 j⟩
  obtain rfl : z = 0 := Subsingleton.elim _ _
  have hemb : ((cfg0.win 3).blk t).view.emb (ix3 (0 : Fin 1) ch l) = ix3 (⟨win0_3.index t (0 : Fin 3), by omega⟩ : Fin 32) ch l := by
    refine funext fun a => Fin.ext ?_
    match a with
    | ⟨0, _⟩ => show win0_3.index t (0 : Fin 3) * 1 + 1 * 0 = win0_3.index t (0 : Fin 3); omega
    | ⟨1, _⟩ => show win0_3.index t (1 : Fin 3) * 128 + 1 * ch.val = ch.val; omega
    | ⟨2, _⟩ => show win0_3.index t (2 : Fin 3) * 8192 + 1 * l.val = l.val; omega
  show fixedRow (rowOf (iblk m c 0 t) ch) (iblk m c 1 t (ix2 ch (0 : Fin 3))) (iblk m c 1 t (ix2 ch (1 : Fin 3)))
      (iblk m c 1 t (ix2 ch (2 : Fin 3))) (iblk m c 2 t (ix1 ch)) l
    = conv3 (V m c main_arg0) (V m c main_arg1) (V m c main_arg2) (((cfg0.win 3).blk t).view.emb (ix3 (0 : Fin 1) ch l))
  rw [hemb, conv3_apply]
  unfold conv3At
  have hrow : rowOf (iblk m c 0 t) ch = fun k => V m c main_arg0 (ix3 (⟨win0_3.index t (0 : Fin 3), by omega⟩ : Fin 32) ch k) :=
    funext fun k => input_block m c t ⟨win0_3.index t (0 : Fin 3), by omega⟩ rfl ch k
  rw [hrow, taps_block m c t ch (0 : Fin 3), taps_block m c t ch (1 : Fin 3), taps_block m c t ch (2 : Fin 3),
    bias_block m c t ch]
  exact fixedRow_eq_paddedRow_of_real _ _ _ _ _ (fun k => hx _) (hw _) (hw _) (hw _) (hb _) l

/-- An index of the result array is in point t's block iff each coordinate is in the block's range on its axis. -/
theorem mem_block (t : Fin cfg0.N) (i : S32x128x8192.Idx) :
    i ∈ ((cfg0.win 3).blk t).view.set ↔ ∀ a : Fin 3, win0_3.index t a * S1x128x8192.size a ≤ (i a).val
      ∧ (i a).val < win0_3.index t a * S1x128x8192.size a + S1x128x8192.size a := by
  show i ∈ ((View.whole main_v0).slice (win0_3.rect t)).set ↔ _
  rw [View.set_slice_whole, Rect.mem_set_unit]
  exact Iff.rfl

/-- Every index of the result array is in the block of the point whose batch index is its batch coordinate. -/
theorem covered (i : S32x128x8192.Idx) :
    ∃ t : Fin cfg0.N, (cfg0.win 3).flush t = true ∧ i ∈ ((cfg0.win 3).blk t).view.set := by
  have h0 : (i 0).val < 32 := (i 0).isLt
  have h1 : (i 1).val < 128 := (i 1).isLt
  have h2 : (i 2).val < 8192 := (i 2).isLt
  obtain ⟨t, ht⟩ := index_onto ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 8192 ≤ (i 2).val ∧ (i 2).val < win0_3.index t (2 : Fin 3) * 8192 + 8192; omega

/-- The result array after the run is `conv3` of the argument arrays as the region finds them. -/
theorem final (c : Dev nD) (hx : ∀ i, ∃ r : ℝ, V m c main_arg0 i = (r : EReal))
    (hw : ∀ i, ∃ r : ℝ, V m c main_arg1 i = (r : EReal)) (hb : ∀ i, ∃ r : ℝ, V m c main_arg2 i = (r : EReal)) :
    (dats m 0 c).arrAt 3 cfg0.N = conv3 (V m c main_arg0) (V m c main_arg1) (V m c main_arg2) :=
  (dats m 0 c).arrAt_eq_of_cover 3 _ (fun t _ => flushed_eq m c hx hw hb t) covered

/-- The kernel's run with its result named: `conv3` of the arguments, which end unchanged — from any memory whose three
    argument arrays hold reals only. -/
theorem run (hfin : ∀ c : Dev nD, (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg2) i = (r : EReal))) :
    θ_run defs (onTc (τ := τ) (main (F := Ideal))) ⟨m, fun _ => 0, ρ⟩ fun r => ∀ c : Dev nD,
      r.2.mem ((c : Thread nD τ).loc main_v0)
        = conv3 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (run_blocks m ρ)

end Cert.KernelIdeal.ArrayValue

end
-- ==== Proof.Finite.lean ====
/-
  Under the precondition every entry of the three arrays is a real number.

  The precondition says, array by array, that every entry's absolute value is below +∞, the three conjoined.  On the
  extended reals |x| = max x (-x) is +∞ exactly at the two infinities, so an entry that passes the test is a real.
-/
import proofs.«119317_j23364622090654_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

instance : Subsingleton S_.Idx := ⟨fun a b => funext fun d => d.elim0⟩

/-- An extended real whose absolute value compares below the f32 word for +∞ is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition, read entry by entry. -/
theorem reals_of_pre [Facts] (x0 : FVec Ideal S32x128x8192 .f32) (x1 : FVec Ideal S128x3 .f32) (x2 : FVec Ideal S128 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ix0
  dsimp only [fn] at h'
  obtain ⟨h01, h2⟩ := IntOp.andi_eq_one.1 h'
  obtain ⟨h0, h1⟩ := IntOp.andi_eq_one.1 h01
  exact ⟨fun i => real_of_abs_lt_top _ (Host.reduce_andi_all _ _ _ _ ix0 h0 i),
    fun i => real_of_abs_lt_top _ (Host.reduce_andi_all _ _ _ _ ix0 h1 i),
    fun i => real_of_abs_lt_top _ (Host.reduce_andi_all _ _ _ _ ix0 h2 i)⟩

end Cert.Finite

end
-- ==== Proof.lean ====
/-
  A depthwise correlation with three taps per channel along the last axis of a [32, 128, 8192] array, zero beyond both
  ends of every row: a kernel that rolls each row by one lane either way and repairs the two end lanes, against a
  reference that pads each row with a zero on either side.

  Row (n, c) of the result is, at lane l, w(c,0)·x(l-1) + w(c,1)·x(l) + w(c,2)·x(l+1) + b(c) with x(-1) = x(8192) = 0.
  The reference computes exactly this expression (Proof/RefIsSpec.lean).  The kernel computes the same sum with the
  row's two ends joined — x(8191) in place of x(-1), x(0) in place of x(8192) — and then, at lane 0 and at lane 8191
  only, subtracts the one product that came around the end (Proof/KernelBlock.lean reads its three overlapping
  stores; Proof/KernelArray.lean puts the 32 blocks together).  Over the extended reals (p + q) - p = q holds when p is
  a real, not when p is an infinity, so the two programs agree where the inputs are finite: the precondition is
  used, entry by entry (Proof/Finite.lean), and the law is `fixedRow_eq_paddedRow` of Proof/Spec.lean.

  The idealization rewrote no operation of the kernel, so that conjunct is `True`; the three frames are the generated
  runs with the results dropped.
-/
import proofs.«119317_j23364622090654_2_alg».proof.Defs
import proofs.«119317_j23364622090654_2_alg».proof.Proof.Gen.Kernel
import proofs.«119317_j23364622090654_2_alg».proof.Proof.Gen.Kernel.Skeleton
import proofs.«119317_j23364622090654_2_alg».proof.Proof.Gen.Kernel.Launch
import proofs.«119317_j23364622090654_2_alg».proof.Proof.Gen.Kernel.Points
import proofs.«119317_j23364622090654_2_alg».proof.Proof.Gen.Kernel.Frame
import proofs.«119317_j23364622090654_2_alg».proof.Proof.Gen.KernelIdeal
import proofs.«119317_j23364622090654_2_alg».proof.Proof.Gen.KernelIdeal.Skeleton
import proofs.«119317_j23364622090654_2_alg».proof.Proof.Gen.KernelIdeal.Launch
import proofs.«119317_j23364622090654_2_alg».proof.Proof.Gen.KernelIdeal.Points
import proofs.«119317_j23364622090654_2_alg».proof.Proof.Gen.KernelIdeal.Frame
import proofs.«119317_j23364622090654_2_alg».proof.Proof.Gen.ReferenceIdeal
import proofs.«119317_j23364622090654_2_alg».proof.Proof.Gen.KernelIdeal.Value
import proofs.«119317_j23364622090654_2_alg».proof.Proof.Gen.ReferenceIdeal.Run
import proofs.«119317_j23364622090654_2_alg».proof.Proof.Gen.ReferenceIdeal.Read
import proofs.«119317_j23364622090654_2_alg».proof.Proof.Gen.Pre_finite_inputs
import proofs.«119317_j23364622090654_2_alg».proof.Proof.Spec
import proofs.«119317_j23364622090654_2_alg».proof.Proof.RefIsSpec
import proofs.«119317_j23364622090654_2_alg».proof.Proof.KernelBlock
import proofs.«119317_j23364622090654_2_alg».proof.Proof.KernelArray
import proofs.«119317_j23364622090654_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- So does the idealized reference: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on finite arguments both idealized programs end with `conv3` of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hfin := fun c : Dev Cert.KernelIdeal.nD => @Cert.Finite.reals_of_pre Cert.Pre_finite_inputs.Gen.facts _ _ _ (hpre c)
  refine ⟨fun c => Cert.DwConv.conv3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.reference_is_conv3,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
